-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S64x12 : Shape := ⟨2, ![64, 12]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S64x12 : S_.BroadcastsInDim S64x12 (![] : Fin 0 → Fin S64x12.rank)
  reducesTo_S64x12_S_d0_1 : S64x12.ReducesTo [0, 1] S_

variable [Facts]

def fn {F : FTy → Type} [FloatOps F] (main_arg0 : FVec F S100000x12 .f32) (main_arg1 : FVec F S64x12 .f32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S64x12 .f32 := Host.absf main_arg1
  let main_cst_0 : FVec F S_ .f32 := constant S_ .f32 0x7F800000#32
  let main_v5 : FVec F S64x12 .f32 := broadcastInDim S64x12 ![] bcast_S_S64x12 main_cst_0
  let main_v6 : IVec S64x12 1 := cmpf .olt main_v4 main_v5
  let main_c_1 : IVec S_ 1 := constantI S_ 1 1#1
  let main_v7 : IVec S_ 1 := (fun x v => Host.reduce IntOp.andi x v reducesTo_S64x12_S_d0_1 h_S_) main_v6 main_c_1
  let main_v8 : IVec S_ 1 := andi main_v3 main_v7
  main_v8
-- ==== Kernel.lean ====
abbrev S100000x12 : Shape := ⟨2, ![100000, 12]⟩
abbrev S64x12 : Shape := ⟨2, ![64, 12]⟩
abbrev S12x100000 : Shape := ⟨2, ![12, 100000]⟩
abbrev S12x64 : Shape := ⟨2, ![12, 64]⟩
abbrev S64x100000 : Shape := ⟨2, ![64, 100000]⟩
abbrev S12x32768 : Shape := ⟨2, ![12, 32768]⟩
abbrev S64x32768 : Shape := ⟨2, ![64, 32768]⟩
abbrev S100000x64 : Shape := ⟨2, ![100000, 64]⟩

abbrev nBuf : Space → Nat
  | .hbm => 6
  | .vmem => 5
  | .smem => 0
  | _ => 0

abbrev bufTy : (tb : Table) → Fin (tcTables nBuf tb) → BufTy
  | .hbm, ⟨0, _⟩ => ⟨S100000x12, .f32⟩
  | .hbm, ⟨1, _⟩ => ⟨S64x12, .f32⟩
  | .hbm, ⟨2, _⟩ => ⟨S12x100000, .f32⟩
  | .hbm, ⟨3, _⟩ => ⟨S12x64, .f32⟩
  | .hbm, ⟨4, _⟩ => ⟨S64x100000, .f32⟩
  | .hbm, ⟨5, _⟩ => ⟨S100000x64, .f32⟩
  | .local _ .vmem, ⟨0, _⟩ => ⟨S12x64, .f32⟩
  | .local _ .vmem, ⟨1, _⟩ => ⟨S12x32768, .f32⟩
  | .local _ .vmem, ⟨2, _⟩ => ⟨S12x32768, .f32⟩
  | .local _ .vmem, ⟨3, _⟩ => ⟨S64x32768, .f32⟩
  | .local _ .vmem, ⟨4, _⟩ => ⟨S64x32768, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S12x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S12x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S100000x12_S12x100000_1_0 : S100000x12.Transposes [1, 0] S12x100000
  transposes_S64x12_S12x64_1_0 : S64x12.Transposes [1, 0] S12x64
  inb_S12x64_S12x64_0_0 : ∀ a, (![0, 0] : Fin 2 → Nat) a + S12x64.size a ≤ S12x64.size a
  h_S12x64 : 0 < S12x64.numel
  shapeCasts_S12x64_S12x64 : S12x64.ShapeCasts S12x64
  inb_S12x32768_S12x32768_0_0 : ∀ a, (![0, 0] : Fin 2 → Nat) a + S12x32768.size a ≤ S12x32768.size a
  h_S12x32768 : 0 < S12x32768.numel
  shapeCasts_S12x32768_S12x32768 : S12x32768.ShapeCasts S12x32768
  inb_S64x32768_S64x32768_0_0 : ∀ a, (![0, 0] : Fin 2 → Nat) a + S64x32768.size a ≤ S64x32768.size a
  h_S64x32768 : 0 < S64x32768.numel
  transposes_S64x100000_S100000x64_1_0 : S64x100000.Transposes [1, 0] S100000x64
  dot_S12x64_S12x32768_S64x32768_0_0_1_1_n_n_wf : DotDims.WF S12x64 S12x32768 S64x32768 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S12x64.size a ≤ S12x64.size a
  hwx0_0 : ∀ i : grid0.Coords, EltTy.bits .f32 = 32 ∨ (Rect.block (s := S12x64) S12x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S12x32768.size a < S12x100000.size a
  hwx0_1 : ∀ i : grid0.Coords, EltTy.bits .f32 = 32 ∨ (Rect.unit (s := S12x100000) (fun a => cc0_transform_1 i a * S12x32768.size a) (fun a => (Pipeline.Clip.of (cc0_transform_1 i a) (S12x32768.size a) (S12x100000.size a)).extent (S12x32768.size a)) fun a => Pipeline.Clip.inb (Pipeline.Clip.ok_of (hstart0_1 i a))).WholeWords (EltTy.packing .f32)
  hwxs0_1 : ∀ i : grid0.Coords, EltTy.bits .f32 = 32 ∨ (Rect.unit (s := S12x32768) (fun _ => 0) (fun a => (Pipeline.Clip.of (cc0_transform_1 i a) (S12x32768.size a) (S12x100000.size a)).extent (S12x32768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S64x32768.size a < S64x100000.size a
  hwx0_2 : ∀ i : grid0.Coords, EltTy.bits .f32 = 32 ∨ (Rect.unit (s := S64x100000) (fun a => cc0_transform_2 i a * S64x32768.size a) (fun a => (Pipeline.Clip.of (cc0_transform_2 i a) (S64x32768.size a) (S64x100000.size a)).extent (S64x32768.size a)) fun a => Pipeline.Clip.inb (Pipeline.Clip.ok_of (hstart0_2 i a))).WholeWords (EltTy.packing .f32)
  hwxs0_2 : ∀ i : grid0.Coords, EltTy.bits .f32 = 32 ∨ (Rect.unit (s := S64x32768) (fun _ => 0) (fun a => (Pipeline.Clip.of (cc0_transform_2 i a) (S64x32768.size a) (S64x100000.size a)).extent (S64x32768.size a)) fun a => (Nat.zero_add _).trans_le (Pipeline.Clip.extent_le (Pipeline.Clip.ok_of (hstart0_2 i a)))).WholeWords (EltTy.packing .f32)

variable [Facts₀]

def dot_S12x64_S12x32768_S64x32768_0_0_1_1_n_n : DotDims S12x64 S12x32768 S64x32768 where
  lhsContracting := [0]
  rhsContracting := [0]
  lhsNonContracting := [1]
  rhsNonContracting := [1]
  lhsBatch := []
  rhsBatch := []
  wf := dot_S12x64_S12x32768_S64x32768_0_0_1_1_n_n_wf

abbrev win0_0 : Pipeline.Window sig grid0 :=
  Pipeline.Window.ofSpec (Memref.whole main_v1) S12x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v0) S12x32768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S64x32768.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x12 : Shape := ⟨2, ![100000, 12]⟩
abbrev S64x12 : Shape := ⟨2, ![64, 12]⟩
abbrev S12x64 : Shape := ⟨2, ![12, 64]⟩
abbrev S100000x64 : Shape := ⟨2, ![100000, 64]⟩

abbrev nBuf : Space → Nat
  | .hbm => 4
  | .vmem => 0
  | .smem => 0
  | _ => 0

abbrev bufTy : (tb : Table) → Fin (tcTables nBuf tb) → BufTy
  | .hbm, ⟨0, _⟩ => ⟨S100000x12, .f32⟩
  | .hbm, ⟨1, _⟩ => ⟨S64x12, .f32⟩
  | .hbm, ⟨2, _⟩ => ⟨S12x64, .f32⟩
  | .hbm, ⟨3, _⟩ => ⟨S100000x64, .f32⟩
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S64x12_S12x64_1_0 : S64x12.Transposes [1, 0] S12x64
  dot_S100000x12_S12x64_S100000x64_1_0_0_1_n_n_wf : DotDims.WF S100000x12 S12x64 S100000x64 [1] [0] [0] [1] [] []

variable [Facts₀]

def dot_S100000x12_S12x64_S100000x64_1_0_0_1_n_n : DotDims S100000x12 S12x64 S100000x64 where
  lhsContracting := [1]
  rhsContracting := [0]
  lhsNonContracting := [0]
  rhsNonContracting := [1]
  lhsBatch := []
  rhsBatch := []
  wf := dot_S100000x12_S12x64_S100000x64_1_0_0_1_n_n_wf

class Facts : Prop extends Facts₀ where

variable [Facts]
-- ==== Proof.BitsStep.lean ====
/-
  One grid step of the transposed linear layer, as a triple: on three whole staging buffers — the weight
  block `w` (12 × 64), a block `x` of 32768 columns of the transposed features (12 × 32768) and the result's
  block (64 × 32768) at anything — the body loads `w` and `x` whole, contracts their 12 rows on the matrix
  unit into a zero accumulator, and stores the 64 × 32768 product over the whole result buffer; `w` and `x`
  are left as they were. Nothing here depends on what the numbers are: the statement holds at every float
  instance.
-/
import proofs.«160464_g55482387530029_cont_9to1_m_211_23_alg».proof.Proof.Gen.Kernel.Frame
import proofs.«160464_g55482387530029_cont_9to1_m_211_23_alg».proof.Proof.Gen.Kernel.Skeleton
import Idealize.ShloMosaic.Lib.Pipeline.Value
import Idealize.ShloMosaic.Lib.Pipeline.Kit
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offsets of every access of the body are zero: each access is its buffer's whole rectangle. -/
theorem zero_offsets : (![0, 0] : Fin 2 → Nat) = fun _ => 0 := funext fun a => by fin_cases a <;> rfl

set_option maxHeartbeats 1000000 in
/-- The step: `w`'s buffer at `x0`, `x`'s at `x1`, the result's at anything; afterwards the first two as they
    were and the result's at the product `k0_pay1 x0 x1` — the one store covers the buffer, so what it held
    before (and the dead load of it) leaves no trace, and the two whole loads read the contents. -/
theorem sound_kernel (c : Dev nD) (E : Set ℕ) (i : grid0.Coords)
    (arg1 : Memref sig .tc .vmem S12x64 .f32) (harg1 : arg1.IsWhole)
    (arg2 : Memref sig .tc .vmem S12x32768 .f32) (harg2 : arg2.IsWhole)
    (arg3 : Memref sig .tc .vmem S64x32768 .f32) (harg3 : arg3.IsWhole)
    (x0 : Vec F S12x64 .f32) (x1 : Vec F S12x32768 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__linear_t_body i arg1 harg1 arg2 harg2 arg3 harg3) K := by
  simp only [cc0__linear_t_body_eq_skeleton]; unfold cc0__linear_t_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zero_offsets inb_S64x32768_S64x32768_0_0 y⟩),
    View.canon_unit_zero zero_offsets]
  simp only [View.readAt_eq_ld, View.ld_unit_zero (S := S12x64) zero_offsets, View.ld_unit_zero (S := S12x32768) zero_offsets]

end Cert.Kernel.Step

end
-- ==== Proof.BitsPoints.lean ====
/-
  The grid of the transposed linear layer at the word-level instance, for the frame alone: the four steps run,
  nothing faults, and the two argument arrays end as launched. At this instance the matrix unit's product is
  not a sum one can read column by column, and the frame does not need it: the result's staging buffer is
  handed to each step at anything and taken back at anything, so nothing is said of what the result array
  ends holding. The weight buffer is handed back exactly; the feature buffer on the columns its fetch landed.
-/
import proofs.«160464_g55482387530029_cont_9to1_m_211_23_alg».proof.Proof.BitsStep
import Idealize.ShloMosaic.Lib.Pipeline.FrameSuffix

set_option maxRecDepth 16384

noncomputable section

namespace Cert.Kernel.Steps

open Cert.Kernel Cert.Kernel.Gen Cert.Kernel.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The feature block of step `t` as a whole buffer: its columns inside the array, zeros behind them. -/
def xpad (c : Dev nD) (t : Fin cfg0.N) : S12x32768.Idx → Elt F .f32 :=
  win0_1.fill (grid0.coords t) (fun _ => FloatOps.ofBits (F := F) .f32 0#32) (iblk m c 1 t)

/-- After step `t`: the weight buffer at the weight block, the feature buffer at the padded feature block; the
    result's buffer is not named (the entry below is never read). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => xpad m c t
    | ⟨2, _⟩ => fun _ => FloatOps.ofBits (F := F) .f32 0#32
  Φ _ := Pipeline.ΦA spec0 c
  q _ := fullShare
  owed _ := 0

/-- The window whose contents the frame does not name: the result's. -/
abbrev unnamedOut : Fin cfg0.W → Bool :=
  fun | 0 => false | 1 => false | 2 => true | ⟨_ + 3, h⟩ => absurd h (Nat.not_lt.2 (Nat.le_add_left _ _))

theorem A_eq (c : Dev nD) (w : Fin cfg0.W) : (dats m 0 c).A w = V m c (Pipeline.arrRef spec0 w) := by
  dsimp only [dats]
theorem after_w (c : Dev nD) (t : Fin cfg0.N) : (dats m 0 c).after 0 t = iblk m c 0 t := by dsimp only [dats]
theorem after_x (c : Dev nD) (t : Fin cfg0.N) : (dats m 0 c).after 1 t = xpad m c t := by dsimp only [dats]

/-- The weight buffer holds the weight block at every step (fetched once, never written). -/
theorem before_w (c : Dev nD) (t : Fin cfg0.N) (d) : (dats m 0 c).before 0 t d = iblk m c 0 t :=
  before0_0_of m (dats m 0 c) (A_eq m c 0) (after_w m c) t d

/-- The feature buffer is fetched at every step: it holds the block's columns inside the array and, behind
    them, whatever the fetch left (`d`). -/
theorem before_x (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk
  rw [A_eq]

/-- A cut window's buffer may be handed back stated only on the columns its transfers move: contents `X` that
    agree there with `A` are `A`'s moved columns filled out with something (`X` itself). -/
theorem owns_loose {w : Fin cfg0.W} (c : Dev nD) (t : Fin cfg0.N) (X A : (cfg0.win w).block.Idx → Elt F (cfg0.win w).elt)
    (h : (cfg0.win w).cut (cfg0.grid.coords t) X = (cfg0.win w).cut (cfg0.grid.coords t) A) :
    (owns (c : Thread nD τ) ((cfg0.win w).stage (cfg0.slots t w)) fullShare X : sProp 𝕄)
      ⊢ iprop(∃ d, owns (c : Thread nD τ) ((cfg0.win w).stage (cfg0.slots t w)) fullShare
          ((cfg0.win w).fill (cfg0.grid.coords t) d ((cfg0.win w).cut (cfg0.grid.coords t) A))) := by
  iintro H; iexists X; rw [← h, (cfg0.win w).fill_cut]; iexact H

/-! ## The body obligation, the result's window unnamed -/

/-- What the body is handed at step `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_w, before_x]
  rw [show (dats m 0 c).Φ t.succ = (dats m 0 c).Φ t.castSucc from rfl,
    show (dats m 0 c).owesAt () t.succ = (dats m 0 c).owesAt () t.castSucc from rfl,
    after_w, after_x]
  iintro ⟨HΦ, Ho, ⟨%d0, H0⟩, ⟨%d1, H1⟩, ⟨%d2, H2⟩⟩
  iapply (sound_kernel (F := F) c Set.univ (grid0.coords t) _ _ _ _ _ _ (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iapply (owns_loose (w := 1) c t _ (xpad m c t) (by
      show win0_1.cut (grid0.coords t) (win0_1.fill (grid0.coords t) d1 (iblk m c 1 t)) = win0_1.cut (grid0.coords t) (xpad m c t)
      unfold xpad; rw [win0_1.cut_fill, win0_1.cut_fill]))
    iexact H1
  · iexists _; iexact H2

/-- The library's body obligation with the result's window unnamed, at every step. -/
theorem body_obligation (c : Dev nD) :
    BodyObligationLoose (dats m 0 c) (defs₀ (F := F)) Variants.none () Set.univ unnamedOut := fun t => by
  rw [bigSep_W0, bigSep_W0]
  exact sound_body m c t

/-! ## The run and the frame -/

/-- The one operation after the region writes the transposed result, and nothing else. -/
theorem tail_writes : ∀ ops ∈ ([hostOps1] : List (List (HloOp τ sig (Elt F)))), ∀ op ∈ ops,
    ∀ b : Ref sig .tc, Proc.devRef .tc b ∈ op.writes → b ∈ ({main_v3} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.unary_writes, Finset.mem_singleton] at hb
  exact Finset.mem_singleton.mpr (Proc.devRef_injective _ hb)

set_option backward.isDefEq.respectTransparency.types false in
/-- Every weakly fair execution of the program ends, nothing faulting, with every buffer that is neither a
    windowed array nor the transposed result at what it held when the region was entered. -/
theorem run_main : θ_run defs (onTc (τ := τ) (main (F := F))) (s₀ m ρ)
    (Pipeline.RDat.FramePostR cfg0 (fun c => (dats m 0 c).toRForget unnamedOut) {main_v3} (fun c b => V0 m c (Proc.devRef .tc b))) :=
  Pipeline.RDat.θ_run_frame_around_T cfgs (0 : Fin 1) launch0 defs₀ Variants.none
    (fun c => (dats m 0 c).toRForget unnamedOut) {main_v3} m ρ main
    (hbody := fun c => (body_obligation m c).toRForget)
    (hshare := fun c w => (dats m 0 c).share_full (fun _ => rfl) w)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The two argument arrays end as they were launched: neither is a windowed array or the result, and no
    operation before the region writes either. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c)⟩)
    (run_main m ρ)

end Cert.Kernel.Steps

end
-- ==== Proof.IdealStep.lean ====
/-
  One grid step of the transposed linear layer, as a triple: on three whole staging buffers — the weight
  block `w` (12 × 64), a block `x` of 32768 columns of the transposed features (12 × 32768) and the result's
  block (64 × 32768) at anything — the body loads `w` and `x` whole, contracts their 12 rows on the matrix
  unit into a zero accumulator, and stores the 64 × 32768 product over the whole result buffer; `w` and `x`
  are left as they were. Nothing here depends on what the numbers are: the statement holds at every float
  instance.
-/
import proofs.«160464_g55482387530029_cont_9to1_m_211_23_alg».proof.Proof.Gen.KernelIdeal.Frame
import proofs.«160464_g55482387530029_cont_9to1_m_211_23_alg».proof.Proof.Gen.KernelIdeal.Skeleton
import Idealize.ShloMosaic.Lib.Pipeline.Value
import Idealize.ShloMosaic.Lib.Pipeline.Kit
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offsets of every access of the body are zero: each access is its buffer's whole rectangle. -/
theorem zero_offsets : (![0, 0] : Fin 2 → Nat) = fun _ => 0 := funext fun a => by fin_cases a <;> rfl

set_option maxHeartbeats 1000000 in
/-- The step: `w`'s buffer at `x0`, `x`'s at `x1`, the result's at anything; afterwards the first two as they
    were and the result's at the product `k0_pay1 x0 x1` — the one store covers the buffer, so what it held
    before (and the dead load of it) leaves no trace, and the two whole loads read the contents. -/
theorem sound_kernel (c : Dev nD) (E : Set ℕ) (i : grid0.Coords)
    (arg1 : Memref sig .tc .vmem S12x64 .f32) (harg1 : arg1.IsWhole)
    (arg2 : Memref sig .tc .vmem S12x32768 .f32) (harg2 : arg2.IsWhole)
    (arg3 : Memref sig .tc .vmem S64x32768 .f32) (harg3 : arg3.IsWhole)
    (x0 : Vec F S12x64 .f32) (x1 : Vec F S12x32768 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__linear_t_body i arg1 harg1 arg2 harg2 arg3 harg3) K := by
  simp only [cc0__linear_t_body_eq_skeleton]; unfold cc0__linear_t_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zero_offsets inb_S64x32768_S64x32768_0_0 y⟩),
    View.canon_unit_zero zero_offsets]
  simp only [View.readAt_eq_ld, View.ld_unit_zero (S := S12x64) zero_offsets, View.ld_unit_zero (S := S12x32768) zero_offsets]

end Cert.KernelIdeal.Step

end
-- ==== Proof.BlockProduct.lean ====
/-
  One block of the transposed product, at the ideal instance: the 64 × 32768 block the body stores from a
  weight block `w` (12 × 64) and a feature block `x` (12 × 32768) is, at row `h` and column `n`,
  the sum over the 12 contracted rows `k` of `w k h · x k n` — the matrix unit's product into a zero
  accumulator is the plain sum over the extended reals. Consequently column `n` of the stored block depends
  on column `n` of `x` only: two feature blocks that agree on their first `e` columns give products that
  agree on their first `e` columns.
-/
import proofs.«160464_g55482387530029_cont_9to1_m_211_23_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Product

open Cert.KernelIdeal Cert.KernelIdeal.Gen Idealize.ShloMosaic Idealize.ShloMosaic.TcCoe Idealize.SL.Sem

/-- Entry `(k, h)` of the weight block, for output row `h = j 0`. -/
abbrev wAt (j : S64x32768.Idx) (k : Fin 12) : S12x64.Idx := fun a => match a with
  | ⟨0, _⟩ => ⟨k.val, k.isLt⟩
  | ⟨1, _⟩ => ⟨(j 0).val, (j 0).isLt⟩
/-- Entry `(k, n)` of the feature block, for output column `n = j 1`. -/
abbrev xAt (j : S64x32768.Idx) (k : Fin 12) : S12x32768.Idx := fun a => match a with
  | ⟨0, _⟩ => ⟨k.val, k.isLt⟩
  | ⟨1, _⟩ => ⟨(j 1).val, (j 1).isLt⟩

/-- The contraction's operand indices, coordinate by coordinate: both operands are contracted on their rows. -/
theorem lhs_row (j : S64x32768.Idx) (q : dot_S12x64_S12x32768_S64x32768_0_0_1_1_n_n.contr.Idx) :
    (dot_S12x64_S12x32768_S64x32768_0_0_1_1_n_n.lhsIdx j q 0).val = (q ⟨0, by decide⟩).val :=
  dot_S12x64_S12x32768_S64x32768_0_0_1_1_n_n.lhsIdx_val_of_single rfl j q
theorem lhs_col (j : S64x32768.Idx) (q : dot_S12x64_S12x32768_S64x32768_0_0_1_1_n_n.contr.Idx) :
    (dot_S12x64_S12x32768_S64x32768_0_0_1_1_n_n.lhsIdx j q 1).val = (j 0).val := by
  unfold DotDims.lhsIdx
  rw [dif_neg (show ¬(1 : Fin S12x64.rank) ∈ dot_S12x64_S12x32768_S64x32768_0_0_1_1_n_n.lhsBatch by decide), dif_pos (show (1 : Fin S12x64.rank) ∈ dot_S12x64_S12x32768_S64x32768_0_0_1_1_n_n.lhsNonContracting by decide)]
  rfl
theorem rhs_row (j : S64x32768.Idx) (q : dot_S12x64_S12x32768_S64x32768_0_0_1_1_n_n.contr.Idx) :
    (dot_S12x64_S12x32768_S64x32768_0_0_1_1_n_n.rhsIdx j q 0).val = (q ⟨0, by decide⟩).val :=
  dot_S12x64_S12x32768_S64x32768_0_0_1_1_n_n.rhsIdx_val_of_single rfl j q
theorem rhs_col (j : S64x32768.Idx) (q : dot_S12x64_S12x32768_S64x32768_0_0_1_1_n_n.contr.Idx) :
    (dot_S12x64_S12x32768_S64x32768_0_0_1_1_n_n.rhsIdx j q 1).val = (j 1).val := by
  unfold DotDims.rhsIdx
  rw [dif_neg (show ¬(1 : Fin S12x32768.rank) ∈ dot_S12x64_S12x32768_S64x32768_0_0_1_1_n_n.rhsBatch by decide), dif_pos (show (1 : Fin S12x32768.rank) ∈ dot_S12x64_S12x32768_S64x32768_0_0_1_1_n_n.rhsNonContracting by decide)]
  rfl

/-- The stored block at an index: `Σ k, w k h · x k n`. -/
theorem product_apply (x0 : FVec Ideal S12x64 .f32) (x1 : FVec Ideal S12x32768 .f32) (j : S64x32768.Idx) :
    k0_pay1 (F := Ideal) x0 x1 j = ∑ k : Fin 12, x0 (wAt j k) * x1 (xAt j k) := by
  unfold k0_pay1
  rw [shapeCast_self, shapeCast_self]
  refine (Ideal.matmul_constant_zero_apply dot_S12x64_S12x32768_S64x32768_0_0_1_1_n_n none x0 x1 j).trans ?_
  rw [← Equiv.sum_comp (ValueIdx.contrEquiv1 dot_S12x64_S12x32768_S64x32768_0_0_1_1_n_n 12 rfl rfl).symm]
  refine Finset.sum_congr rfl fun k _ => ?_
  have hk := ValueIdx.contrEquiv1_symm_val dot_S12x64_S12x32768_S64x32768_0_0_1_1_n_n 12 rfl rfl k
  have el : dot_S12x64_S12x32768_S64x32768_0_0_1_1_n_n.lhsIdx j ((ValueIdx.contrEquiv1 dot_S12x64_S12x32768_S64x32768_0_0_1_1_n_n 12 rfl rfl).symm k) = wAt j k := funext fun a => Fin.ext (by
    match a with
    | ⟨0, _⟩ => exact (lhs_row _ _).trans hk
    | ⟨1, _⟩ => exact lhs_col _ _)
  have er : dot_S12x64_S12x32768_S64x32768_0_0_1_1_n_n.rhsIdx j ((ValueIdx.contrEquiv1 dot_S12x64_S12x32768_S64x32768_0_0_1_1_n_n 12 rfl rfl).symm k) = xAt j k := funext fun a => Fin.ext (by
    match a with
    | ⟨0, _⟩ => exact (rhs_row _ _).trans hk
    | ⟨1, _⟩ => exact rhs_col _ _)
  rw [el, er]

/-- Column locality: if two feature blocks agree at column `j 1`, the products agree at `j`. -/
theorem product_congr_col (x0 : FVec Ideal S12x64 .f32) (x1 x1' : FVec Ideal S12x32768 .f32) (j : S64x32768.Idx)
    (h : ∀ k : Fin 12, x1 (xAt j k) = x1' (xAt j k)) :
    k0_pay1 (F := Ideal) x0 x1 j = k0_pay1 (F := Ideal) x0 x1' j := by
  rw [product_apply, product_apply]
  exact Finset.sum_congr rfl fun k _ => by rw [h k]

end Cert.KernelIdeal.Product

end
-- ==== Proof.IdealPoints.lean ====
/-
  The grid of the transposed linear layer at the ideal instance: four steps, step `t` taking columns
  `32768·t ‥` of the transposed features. The array has 100000 columns, so the last step's block overhangs
  it by 31072 columns: its fetch lands the 1696 columns inside the array in the buffer's leading part and
  leaves words nothing names behind them, and its write-back moves only the leading 1696 columns of the
  result's buffer. What each staging buffer holds after each step is stated here on the columns the transfers
  move: the weight block itself; the feature block, padded; and the product of the two. That the product's
  leading columns do not depend on the padding is the column locality of the sum over the contracted rows.
-/
import proofs.«160464_g55482387530029_cont_9to1_m_211_23_alg».proof.Proof.IdealStep
import proofs.«160464_g55482387530029_cont_9to1_m_211_23_alg».proof.Proof.BlockProduct
import Idealize.ShloMosaic.Lib.Pipeline.FrameSuffix

set_option maxRecDepth 16384

noncomputable section

namespace Cert.KernelIdeal.Steps

open Cert.KernelIdeal Cert.KernelIdeal.Gen Cert.KernelIdeal.Step Cert.KernelIdeal.Product
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The feature block of step `t` as a whole buffer: its columns inside the array, zeros behind them. -/
def xpad (c : Dev nD) (t : Fin cfg0.N) : S12x32768.Idx → Elt Ideal .f32 :=
  win0_1.fill (grid0.coords t) (fun _ => FloatOps.ofBits (F := Ideal) .f32 0#32) (iblk m c 1 t)

/-- After step `t`: the weight buffer at the weight block, the feature buffer at the padded feature block,
    the result's buffer at their product. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => xpad m c t
    | ⟨2, _⟩ => k0_pay1 (F := Ideal) (iblk m c 0 t) (xpad m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_w (c : Dev nD) (t : Fin cfg0.N) : (dats m 0 c).after 0 t = iblk m c 0 t := by dsimp only [dats]
theorem after_x (c : Dev nD) (t : Fin cfg0.N) : (dats m 0 c).after 1 t = xpad m c t := by dsimp only [dats]
theorem after_o (c : Dev nD) (t : Fin cfg0.N) :
    (dats m 0 c).after 2 t = k0_pay1 (F := Ideal) (iblk m c 0 t) (xpad m c t) := by dsimp only [dats]

/-- The weight buffer holds the weight block at every step (fetched once, never written). -/
theorem before_w (c : Dev nD) (t : Fin cfg0.N) (d) : (dats m 0 c).before 0 t d = iblk m c 0 t :=
  before0_0_of m (dats m 0 c) (A_eq m c 0) (after_w m c) t d

/-- The feature buffer is fetched at every step: it holds the block's columns inside the array and, behind
    them, whatever the fetch left (`d`). -/
theorem before_x (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk
  rw [A_eq]

/-! ## The leading columns of the product do not depend on the padding -/

/-- On the grid: the feature window is never cut on its 12 rows, and it is cut on its columns exactly where
    the result's window is. -/
theorem cuts_agree : ∀ t : Fin cfg0.N, win0_1.xsize (grid0.coords t) 0 = 12
    ∧ win0_2.xsize (grid0.coords t) 1 = win0_1.xsize (grid0.coords t) 1 :=
  (by decide +kernel : ∀ t : Fin grid0.N, win0_1.xsize (grid0.coords t) 0 = 12
    ∧ win0_2.xsize (grid0.coords t) 1 = win0_1.xsize (grid0.coords t) 1)

/-- Two paddings of one block agree wherever the fetch lands the block. -/
theorem fill_congr_of_moved {α : Type} {G : Pipeline.Grid} (w : Pipeline.Window sig G) (i : G.Coords) (d d' : w.block.Idx → α)
    (g : (w.xblock i).Idx → α) {j : w.block.Idx} (h : w.moved i j = true) : w.fill i d g j = w.fill i d' g j := by
  unfold Pipeline.Window.fill; rw [dif_pos h, dif_pos h]

/-- The columns of the product that the write-back moves read only columns of the feature buffer that the fetch
    landed: they are the same whatever lies behind those. -/
theorem product_cut_indep (t : Fin cfg0.N) (W : FVec Ideal S12x64 .f32) (B : (win0_1.xblock (grid0.coords t)).Idx → Elt Ideal .f32)
    (d d' : S12x32768.Idx → Elt Ideal .f32) :
    win0_2.cut (grid0.coords t) (k0_pay1 (F := Ideal) W (win0_1.fill (grid0.coords t) d B))
      = win0_2.cut (grid0.coords t) (k0_pay1 (F := Ideal) W (win0_1.fill (grid0.coords t) d' B)) := by
  funext y
  refine product_congr_col W _ _ (win0_2.xinj (grid0.coords t) y) fun k => ?_
  refine fill_congr_of_moved win0_1 (grid0.coords t) d d' B ((win0_1.moved_iff (grid0.coords t) _).mpr fun a => ?_)
  have hc := cuts_agree t
  match a with
  | ⟨0, _⟩ => show k.val < win0_1.xsize (grid0.coords t) 0; rw [hc.1]; exact k.isLt
  | ⟨1, _⟩ =>
    show (y 1).val < win0_1.xsize (grid0.coords t) 1
    rw [← hc.2]; exact (y 1).isLt

/-- A cut window's buffer may be handed back stated only on the columns its transfers move: contents `X` that
    agree there with `A` are `A`'s moved columns filled out with something (`X` itself). -/
theorem owns_loose {w : Fin cfg0.W} (c : Dev nD) (t : Fin cfg0.N) (X A : (cfg0.win w).block.Idx → Elt Ideal (cfg0.win w).elt)
    (h : (cfg0.win w).cut (cfg0.grid.coords t) X = (cfg0.win w).cut (cfg0.grid.coords t) A) :
    (owns (c : Thread nD τ) ((cfg0.win w).stage (cfg0.slots t w)) fullShare X : sProp 𝕄)
      ⊢ iprop(∃ d, owns (c : Thread nD τ) ((cfg0.win w).stage (cfg0.slots t w)) fullShare
          ((cfg0.win w).fill (cfg0.grid.coords t) d ((cfg0.win w).cut (cfg0.grid.coords t) A))) := by
  iintro H; iexists X; rw [← h, (cfg0.win w).fill_cut]; iexact H

/-! ## The body obligation -/

/-- What the body is handed at step `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back: the weight buffer exactly, the two cut windows' buffers on the columns their
    transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

/-- The step at any point: the weight buffer holds the weight block and the feature buffer the feature block
    with anything `d1` behind it; the body leaves their product, whose leading columns are those of the product
    with the zero padding. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_w, before_x]
  rw [show (dats m 0 c).Φ t.succ = (dats m 0 c).Φ t.castSucc from rfl,
    show (dats m 0 c).owesAt () t.succ = (dats m 0 c).owesAt () t.castSucc from rfl,
    after_w, after_x, after_o]
  iintro ⟨HΦ, Ho, ⟨%d0, H0⟩, ⟨%d1, H1⟩, ⟨%d2, H2⟩⟩
  iapply (sound_kernel (F := Ideal) c Set.univ (grid0.coords t) _ _ _ _ _ _ (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iapply (owns_loose (w := 1) c t _ (xpad m c t) (by
      show win0_1.cut (grid0.coords t) (win0_1.fill (grid0.coords t) d1 (iblk m c 1 t)) = win0_1.cut (grid0.coords t) (xpad m c t)
      unfold xpad; rw [win0_1.cut_fill, win0_1.cut_fill]))
    iexact H1
  · iapply (owns_loose (w := 2) c t _ (k0_pay1 (F := Ideal) (iblk m c 0 t) (xpad m c t))
      (product_cut_indep t (iblk m c 0 t) (iblk m c 1 t) d1 _))
    iexact H2

/-- The library's body obligation, at every step. -/
theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of the program ends, nothing faulting, with every windowed array at what the
    write-backs left (`Dat.arrAt`) and every other buffer at what the transposition after the region makes of
    those. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The two argument arrays end as they were launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Steps

end
-- ==== Proof.ResultValue.lean ====
/-
  What the ideal program's result array holds after the run. The region's output, a 64 × 100000 array, ends
  holding at `(h, n)` the sum over the 12 contracted rows `k` of `wt k h · ft k n`, where `wt` and `ft` are
  the two transposed operands the region finds: step `t` writes back the columns `32768·t ‥` that lie inside
  the array, each the product's column of the same number, and the four steps' columns together are all
  100000. The operation after the region transposes that array into the 100000 × 64 result.
-/
import proofs.«160464_g55482387530029_cont_9to1_m_211_23_alg».proof.Proof.IdealPoints
import Idealize.ShloMosaic.Lib.StableHlo.Run

set_option maxRecDepth 16384

noncomputable section

namespace Cert.KernelIdeal.Result

open Cert.KernelIdeal Cert.KernelIdeal.Gen Cert.KernelIdeal.Step Cert.KernelIdeal.Product Cert.KernelIdeal.Steps
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## The whole-array function -/

/-- Entry `(k, h)` of the transposed weights, for row `h = i 0` of the region's output. -/
abbrev wtAt (i : S64x100000.Idx) (k : Fin 12) : S12x64.Idx := fun a => match a with
  | ⟨0, _⟩ => ⟨k.val, k.isLt⟩
  | ⟨1, _⟩ => ⟨(i 0).val, (i 0).isLt⟩
/-- Entry `(k, n)` of the transposed features, for column `n = i 1` of the region's output. -/
abbrev ftAt (i : S64x100000.Idx) (k : Fin 12) : S12x100000.Idx := fun a => match a with
  | ⟨0, _⟩ => ⟨k.val, k.isLt⟩
  | ⟨1, _⟩ => ⟨(i 1).val, (i 1).isLt⟩

/-- The transposed product: `(h, n) ↦ Σ k, wt k h · ft k n`. -/
def prodT (wt : S12x64.Idx → EReal) (ft : S12x100000.Idx → EReal) : S64x100000.Idx → EReal :=
  fun i => ∑ k : Fin 12, wt (wtAt i k) * ft (ftAt i k)

/-! ## What step `t` writes back -/

/-- The printed index maps over the grid: the weight window stays at block (0, 0); the feature window and
    the result's are at block (0, t); and the result's columns that step `t` moves end where the next block
    starts or at the array's end, whichever comes first. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_2.xsize (grid0.coords t) (0 : Fin 2) = 64
    ∧ t.val * 32768 + win0_2.xsize (grid0.coords t) (1 : Fin 2) = min ((t.val + 1) * 32768) 100000 :=
  (by decide +kernel : ∀ t : Fin grid0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_2.xsize (grid0.coords t) (0 : Fin 2) = 64
    ∧ t.val * 32768 + win0_2.xsize (grid0.coords t) (1 : Fin 2) = min ((t.val + 1) * 32768) 100000)

/-- The padded feature block where the fetch landed it is the block. -/
theorem fill_apply_of_moved {α : Type} {G : Pipeline.Grid} (w : Pipeline.Window sig G) (i : G.Coords) (d : w.block.Idx → α)
    (g : (w.xblock i).Idx → α) {j : w.block.Idx} (h : w.moved i j = true) :
    w.fill i d g j = g fun a => ⟨(j a).val, (w.moved_iff i j).mp h a⟩ := by
  unfold Pipeline.Window.fill; rw [dif_pos h]

/-- WHAT STEP `t` WRITES BACK is block `t` of the transposed product of the two operands as the region finds
    them: column `y 1` of the step's product reads column `y 1` of the feature block, which is column
    `32768·t + y 1` of the transposed features. -/
theorem flushed_eq (c : Dev nD) (t : Fin cfg0.N) :
    (dats m 0 c).flushed 2 t = ((cfg0.win 2).blk t).view.read (Elt Ideal) (prodT (V m c main_v1) (V m c main_v0)) := by
  show (cfg0.win 2).cut (grid0.coords t) ((dats m 0 c).after 2 t) = _
  rw [after_o]
  obtain ⟨e00, e01, e10, e11, e20, e21, -, -⟩ := idx_facts t
  have hc := cuts_agree t
  funext y
  show k0_pay1 (F := Ideal) (iblk m c 0 t) (xpad m c t) (win0_2.xinj (grid0.coords t) y)
    = prodT (V m c main_v1) (V m c main_v0) (((cfg0.win 2).blk t).view.emb y)
  rw [product_apply]
  unfold prodT
  refine Finset.sum_congr rfl fun k _ => ?_
  have hmv : win0_1.moved (grid0.coords t) (xAt (win0_2.xinj (grid0.coords t) y) k) = true :=
    (win0_1.moved_iff (grid0.coords t) _).mpr fun a => by
      match a with
      | ⟨0, _⟩ => show k.val < win0_1.xsize (grid0.coords t) 0; rw [hc.1]; exact k.isLt
      | ⟨1, _⟩ => show (y 1).val < win0_1.xsize (grid0.coords t) 1; rw [← hc.2]; exact (y 1).isLt
  have hw : iblk m c 0 t (wAt (win0_2.xinj (grid0.coords t) y) k) = V m c main_v1 (wtAt (((cfg0.win 2).blk t).view.emb y) k) := by
    show V m c main_v1 (((cfg0.win 0).blk t).view.emb (wAt (win0_2.xinj (grid0.coords t) y) k)) = _
    refine congrArg (V m c main_v1) (funext fun a => Fin.ext ?_)
    match a with
    | ⟨0, _⟩ => show win0_0.index t (0 : Fin 2) * 12 + 1 * k.val = k.val; omega
    | ⟨1, _⟩ => show win0_0.index t (1 : Fin 2) * 64 + 1 * (y 0).val = win0_2.index t (0 : Fin 2) * 64 + 1 * (y 0).val; omega
  have hx : xpad m c t (xAt (win0_2.xinj (grid0.coords t) y) k) = V m c main_v0 (ftAt (((cfg0.win 2).blk t).view.emb y) k) := by
    unfold xpad
    rw [fill_apply_of_moved win0_1 (grid0.coords t) _ _ hmv]
    show V m c main_v0 (((cfg0.win 1).blk t).view.emb _) = _
    refine congrArg (V m c main_v0) (funext fun a => Fin.ext ?_)
    match a with
    | ⟨0, _⟩ => show win0_1.index t (0 : Fin 2) * 12 + 1 * k.val = k.val; omega
    | ⟨1, _⟩ => show win0_1.index t (1 : Fin 2) * 32768 + 1 * (y 1).val = win0_2.index t (1 : Fin 2) * 32768 + 1 * (y 1).val; omega
  rw [hw, hx]

/-! ## The four steps' blocks are all of the array -/

/-- An index of the region's output is in step `t`'s block iff each coordinate is in the block's range inside
    the array. -/
theorem mem_blk (t : Fin cfg0.N) (i : S64x100000.Idx) :
    i ∈ ((cfg0.win 2).blk t).view.set ↔ ∀ a : Fin 2, win0_2.index t a * S64x32768.size a ≤ (i a).val
      ∧ (i a).val < win0_2.index t a * S64x32768.size a + win0_2.xsize (grid0.coords t) a := by
  show i ∈ ((View.whole main_v2).slice (win0_2.rect t)).set ↔ _
  rw [View.set_slice_whole, Rect.mem_set_unit]
  exact Iff.rfl

/-- Column `n` is written back by step `n / 32768`. -/
theorem cover (i : S64x100000.Idx) :
    ∃ t : Fin cfg0.N, (cfg0.win 2).flush t = true ∧ i ∈ ((cfg0.win 2).blk t).view.set := by
  have h0 : (i 0).val < 64 := (i 0).isLt
  have h1 : (i 1).val < 100000 := (i 1).isLt
  have hN : cfg0.N = 4 := N_0
  obtain ⟨t, ht⟩ : ∃ t : Fin cfg0.N, t.val = (i 1).val / 32768 := ⟨⟨(i 1).val / 32768, by rw [hN]; omega⟩, rfl⟩
  obtain ⟨-, -, -, -, e20, e21, e22, e23⟩ := idx_facts t
  refine ⟨t, flush0_2 t, ?_⟩
  rw [mem_blk]
  intro a
  match a with
  | ⟨0, _⟩ =>
    show win0_2.index t (0 : Fin 2) * 64 ≤ (i 0).val ∧ (i 0).val < win0_2.index t (0 : Fin 2) * 64 + win0_2.xsize (grid0.coords t) (0 : Fin 2)
    omega
  | ⟨1, _⟩ =>
    show win0_2.index t (1 : Fin 2) * 32768 ≤ (i 1).val ∧ (i 1).val < win0_2.index t (1 : Fin 2) * 32768 + win0_2.xsize (grid0.coords t) (1 : Fin 2)
    omega

/-- THE REGION'S OUTPUT after the run: the transposed product of the two operands as the region finds them. -/
theorem final (c : Dev nD) : (dats m 0 c).arrAt 2 cfg0.N = prodT (V m c main_v1) (V m c main_v0) :=
  (dats m 0 c).arrAt_eq_of_cover 2 _ (fun t _ => flushed_eq m c t) cover

/-! ## The operations around the region -/

/-- The region finds the features transposed, -/
theorem V_ft (c : Dev nD) : (V m c main_v0 : S12x100000.Idx → EReal)
    = transpose S12x100000 [1, 0] (m ((c : Thread nD τ).loc main_arg0)) transposes_S100000x12_S12x100000_1_0 := by
  show StableHlo.after hostOps0 (fun b => m (c, b)) (Proc.devRef .tc main_v0) = _
  after_results
/-- and the weights transposed. -/
theorem V_wt (c : Dev nD) : (V m c main_v1 : S12x64.Idx → EReal)
    = transpose S12x64 [1, 0] (m ((c : Thread nD τ).loc main_arg1)) transposes_S64x12_S12x64_1_0 := by
  show StableHlo.after hostOps0 (fun b => m (c, b)) (Proc.devRef .tc main_v1) = _
  after_results

/-- The operation after the region transposes the region's output into the result. -/
theorem result_eq (c : Dev nD) : Pipeline.afterTail₀ cfgs (dats m) 0 (V0 m) [hostOps1] c main_v3
    = transpose S100000x64 [1, 0] (prodT (V m c main_v1) (V m c main_v0)) transposes_S64x100000_S100000x64_1_0 := by
  unfold Pipeline.afterTail₀
  show StableHlo.after hostOps1 _ (Proc.devRef .tc main_v3) = _
  after_results
  exact congrArg (fun A => transpose S100000x64 [1, 0] A transposes_S64x100000_S100000x64_1_0)
    ((Pipeline.withArrays_arr spec0 launch0.win.arr_inj c _ _ 2).trans (final m c))

end Cert.KernelIdeal.Result

end
-- ==== Proof.SameFunction.lean ====
/-
  The two programs compute one function. The ideal kernel's result is, at `(n, h)`, the entry `(h, n)` of the
  transposed product, `Σ k, W h k · X n k` once the two transposes before the region are read back; the
  reference's is `Σ k, X n k · Wᵀ k h = Σ k, X n k · W h k`. Term by term these differ by the order of the two
  factors, and multiplication of extended reals is commutative — no finiteness is used.
-/
import proofs.«160464_g55482387530029_cont_9to1_m_211_23_alg».proof.Proof.ResultValue
import proofs.«160464_g55482387530029_cont_9to1_m_211_23_alg».proof.Proof.Gen.ReferenceIdeal.Read

noncomputable section

namespace Cert.KernelIdeal.Same

open Cert.KernelIdeal Cert.KernelIdeal.Gen Cert.KernelIdeal.Steps Cert.KernelIdeal.Result
open Idealize.ShloMosaic Idealize.ShloMosaic.TcCoe Idealize.SL Idealize.SL.Sem

/-- The index `(h, n)` of the region's output that the final transpose reads for the result's `(n, h)`. -/
abbrev swapped (i : S100000x64.Idx) : S64x100000.Idx := fun a => match a with
  | ⟨0, _⟩ => ⟨(i 1).val, (i 1).isLt⟩
  | ⟨1, _⟩ => ⟨(i 0).val, (i 0).isLt⟩

/-- The kernel's result, as a function of the two argument arrays, is the reference's. -/
theorem kernel_is_reference (X : (⟨S100000x12, .f32⟩ : BufTy).Contents (Elt Ideal)) (W : (⟨S64x12, .f32⟩ : BufTy).Contents (Elt Ideal)) :
    transpose S100000x64 [1, 0]
        (prodT (transpose S12x64 [1, 0] W transposes_S64x12_S12x64_1_0)
          (transpose S12x100000 [1, 0] X transposes_S100000x12_S12x100000_1_0))
        transposes_S64x100000_S100000x64_1_0
      = Cert.ReferenceIdeal.Read.val_main_v1 (F := Ideal) X W := by
  funext i
  rw [Cert.ReferenceIdeal.Read.val_main_v1_apply,
    transpose_apply [1, 0] _ transposes_S64x100000_S100000x64_1_0 i (swapped i) (fun b => match b with
      | ⟨0, _⟩ => rfl
      | ⟨1, _⟩ => rfl)]
  unfold prodT
  refine Finset.sum_congr rfl fun k _ => ?_
  rw [Cert.ReferenceIdeal.Read.val_main_v0_apply,
    transpose_apply [1, 0] W transposes_S64x12_S12x64_1_0 (wtAt (swapped i) k)
      (Cert.ReferenceIdeal.Read.idx_main_v0 (Cert.ReferenceIdeal.Read.ridx_main_v1 i k)) (fun b => match b with
      | ⟨0, _⟩ => rfl
      | ⟨1, _⟩ => rfl),
    transpose_apply [1, 0] X transposes_S100000x12_S12x100000_1_0 (ftAt (swapped i) k)
      (Cert.ReferenceIdeal.Read.lidx_main_v1 i k) (fun b => match b with
      | ⟨0, _⟩ => rfl
      | ⟨1, _⟩ => rfl)]
  exact mul_comm _ _

variable (m : (ℓ : Loc nD τ sig) → Buf (Elt Ideal) ℓ) (ρ : Dev nD → PrngReg)

/-- The ideal kernel's run, read at the result: every weakly fair execution ends, nothing faulting, with the
    result at the reference's function of the two argument arrays and the arguments as launched. -/
theorem run : θ_run defs (onTc (τ := τ) (main (F := Ideal))) ⟨m, fun _ => 0, ρ⟩ fun r => ∀ c : Dev nD,
      r.2.mem ((c.tc : Thread nD τ).loc main_v3)
        = Cert.ReferenceIdeal.Read.val_main_v1 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans
        ((result_eq m c).trans (by rw [V_wt, V_ft]; exact kernel_is_reference _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Same

end
-- ==== Proof.lean ====
/-
  A bias-free linear layer `z = features · W_fcᵀ` (features 100000 × 12, W_fc 64 × 12, z 100000 × 64), computed
  transposed: the program transposes both operands, runs a four-step grid in which step `t` multiplies the
  12 × 64 transposed weights into columns `32768·t ‥` of the 12 × 100000 transposed features on the matrix unit
  and writes the 64 × 32768 product back into the 64 × 100000 output, and transposes that output into `z`. The
  last step's blocks overhang the arrays by 31072 columns, so its transfers move only the 1696 columns inside.

  The frames: every weakly fair execution of each program ends, faults nowhere, and leaves the two argument
  arrays as launched — for the word-level kernel without naming what the output holds (Proof/BitsStep.lean,
  Proof/BitsPoints.lean), for the ideal kernel with the output named (Proof/IdealStep.lean,
  Proof/IdealPoints.lean), for the reference from its run read back.

  The value: over the extended reals the output's entry `(h, n)` is `Σ k, W h k · X n k` (one step's product at an
  index, Proof/BlockProduct.lean; its leading columns whatever lies behind the fetched ones, Proof/IdealPoints.lean;
  the four steps' columns are all 100000, Proof/ResultValue.lean), and the reference's `(n, h)` is
  `Σ k, X n k · W h k`: equal term by term by the commutativity of the product (Proof/SameFunction.lean). The
  ideal pass rewrote nothing, so there is nothing to preserve.
-/
import proofs.«160464_g55482387530029_cont_9to1_m_211_23_alg».proof.Defs
import proofs.«160464_g55482387530029_cont_9to1_m_211_23_alg».proof.Proof.Gen.Kernel
import proofs.«160464_g55482387530029_cont_9to1_m_211_23_alg».proof.Proof.Gen.Kernel.Skeleton
import proofs.«160464_g55482387530029_cont_9to1_m_211_23_alg».proof.Proof.Gen.Kernel.Launch
import proofs.«160464_g55482387530029_cont_9to1_m_211_23_alg».proof.Proof.Gen.Kernel.Points
import proofs.«160464_g55482387530029_cont_9to1_m_211_23_alg».proof.Proof.Gen.Kernel.Frame
import proofs.«160464_g55482387530029_cont_9to1_m_211_23_alg».proof.Proof.Gen.KernelIdeal
import proofs.«160464_g55482387530029_cont_9to1_m_211_23_alg».proof.Proof.Gen.KernelIdeal.Skeleton
import proofs.«160464_g55482387530029_cont_9to1_m_211_23_alg».proof.Proof.Gen.KernelIdeal.Launch
import proofs.«160464_g55482387530029_cont_9to1_m_211_23_alg».proof.Proof.Gen.KernelIdeal.Points
import proofs.«160464_g55482387530029_cont_9to1_m_211_23_alg».proof.Proof.Gen.KernelIdeal.Frame
import proofs.«160464_g55482387530029_cont_9to1_m_211_23_alg».proof.Proof.Gen.ReferenceIdeal
import proofs.«160464_g55482387530029_cont_9to1_m_211_23_alg».proof.Proof.Gen.Pre_finite_inputs
import proofs.«160464_g55482387530029_cont_9to1_m_211_23_alg».proof.Proof.Gen.ReferenceIdeal.Run
import proofs.«160464_g55482387530029_cont_9to1_m_211_23_alg».proof.Proof.Gen.ReferenceIdeal.Read
import proofs.«160464_g55482387530029_cont_9to1_m_211_23_alg».proof.Proof.BitsPoints
import proofs.«160464_g55482387530029_cont_9to1_m_211_23_alg».proof.Proof.SameFunction
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Steps.frame (F := Bits) m ρ

/-- The ideal kernel runs and keeps its arguments. -/
theorem frame_ideal : Cert.frame_KernelIdeal := fun m ρ _ => Cert.KernelIdeal.Steps.frame m ρ

/-- The reference runs and keeps its arguments: its run read back, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arguments, both ideal programs end with the result at one function
    of them: `(n, h) ↦ Σ k, X n k · W h k`. -/
theorem algebraic : Cert.algebraic_KernelIdeal_ReferenceIdeal := by
  intro m ρ m' ρ' _ hagree
  refine ⟨_, Cert.KernelIdeal.Same.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
